-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S2048x512, .bf16⟩
  | .local _ .vmem, ⟨9, _⟩ => ⟨S2048x512, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .f32⟩
  | .local _ .vmem, ⟨13, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .bf16 = 32 ∨ (Rect.block (s := S4096x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x4096.size a
  hwx2_2 : ∀ i : grid2.Coords, EltTy.bits .f32 = 32 ∨ (Rect.block (s := S8192x4096) S2048x1024.size (cc2_transform_2 i) (hinb2_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .i1⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.RunValue.lean ====
/-
  The kernel's run with its result named.

  @main is three kernel regions in a row.  After the last one every buffer the TensorCore holds outside a region
  stands at the contents `W3 m ρ c`: region 2's arrays at what its write-backs leave, every other buffer as region 2
  found it.  The frame statement reads that final state at the two arguments only; here it is read at the result
  buffer `main_v2` as well, so that the result array after the run has a NAME, `W3 m ρ c main_v2`, which the value
  lemmas then open region by region.
-/
import proofs.«153254_j41944650612857_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at `W3 m ρ c main_v2` and both argument arrays as launched: the launch over the three regions, the last
    thread state (every buffer held outside a region at `W3`) read against the final state at the result and at each
    argument. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

end Cert.KernelIdeal.RunValue

end
-- ==== Proof.AccCases.lean ====
/-
  Region 2, one grid point at a time.

  The matmul kernel's body keeps its 2048 × 1024 output block resident over the eight steps of the contraction
  axis.  At a step it loads the block `acc`, a 2048 × 512 block `a` of the first sign matrix and a 512 × 1024 block `b`
  of the second, and stores `acc + a · b`; at the first step of a run it has first stored zeros over the block, so
  what it leaves there is `0 + a · b`.  Entry `(p, q)` of `a · b` is the sum over `l < 512` of `a[p, l] * b[l, q]`.
-/
import proofs.«153254_j41944650612857_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

section AnyInstance
variable {F : FTy → Type} [FloatOps F]

/-- A LATER STEP of a run (the reset not taken): the block holding `acc` is left at the body's one stored value,
    `acc + a · b` of the loaded blocks. -/
theorem out_B (c : Dev nD) (i : grid2.Coords) (a3 : Memref sig .tc .vmem S2048x512 .bf16) (h3 : a3.IsWhole)
    (a4 : Memref sig .tc .vmem S512x1024 .bf16) (h4 : a4.IsWhole) (a5 : Memref sig .tc .vmem S2048x1024 .f32) (h5 : a5.IsWhole)
    (hc : ¬cond2_0 i) (x0 : Vec F S2048x512 .bf16) (x1 : Vec F S512x1024 .bf16) (xo : Vec F S2048x1024 .f32) :
    out2_B_2 c i a3 h3 a4 h4 a5 h5 hc x0 x1 xo = k2_pay2 xo x0 x1 := by
  unfold out2_B_2
  rw [View.read_writes_eq_canon _ _ _ (cover2_B_2 c i a3 h3 a4 h4 a5 h5 hc x0 x1 xo)]
  unfold kernelRun2_B
  dsimp only
  sl_unfold_words
  rw [View.canon_unit_zero hz]
  simp only [View.readAt_eq_ld, h3.read_unread, h4.read_unread, h5.read_unread, View.ld_unit_zero (S := S2048x512) hz,
    View.ld_unit_zero (S := S512x1024) hz, View.ld_unit_zero (S := S2048x1024) hz]

/-- THE FIRST STEP of a run (the reset taken): the body stores zeros over the block, loads them back and leaves
    `0 + a · b`. -/
theorem out_A (c : Dev nD) (i : grid2.Coords) (a3 : Memref sig .tc .vmem S2048x512 .bf16) (h3 : a3.IsWhole)
    (a4 : Memref sig .tc .vmem S512x1024 .bf16) (h4 : a4.IsWhole) (a5 : Memref sig .tc .vmem S2048x1024 .f32) (h5 : a5.IsWhole)
    (hc : cond2_0 i) (x0 : Vec F S2048x512 .bf16) (x1 : Vec F S512x1024 .bf16) :
    out2_A_2 c i a3 h3 a4 h4 a5 h5 hc x0 x1 = k2_pay2 (k2_pay1 (F := F)) x0 x1 := by
  unfold out2_A_2
  rw [View.read_writes_eq_canon _ _ _ (cover2_A_2 c i a3 h3 a4 h4 a5 h5 hc x0 x1)]
  unfold kernelRun2_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S512x1024) hz, View.ld_unit_zero (S := S2048x1024) hz]

end AnyInstance

/-! ## The stored value at an entry, over the extended reals -/

/-- The zero block is zero everywhere. -/
theorem pay1_apply (j : S2048x1024.Idx) : k2_pay1 (F := Ideal) j = 0 := by
  show Ideal.ofBits .f32 0x00000000#32 = 0
  exact Ideal.ofBits_zero_f32

/-- The block product's dimension numbers: rows of the first block against columns of the second, one contracted
    axis of 512. -/
abbrev DD : DotDims S2048x512 S512x1024 S2048x1024 := dot_S2048x512_S512x1024_S2048x1024_1_0_0_1_n_n

/-- The one contraction coordinate of the block product, as a number below 512. -/
abbrev kEquiv : DD.contr.Idx ≃ Fin 512 := contrEquiv1 DD 512 rfl rfl

/-- Where the product reads its operands: the first at (the output's row, the contraction coordinate), -/
theorem lhs0 (i : S2048x1024.Idx) (k : DD.contr.Idx) : (DD.lhsIdx i k 0).val = (i 0).val := by
  unfold DotDims.lhsIdx
  rw [dif_neg (show ¬(0 : Fin S2048x512.rank) ∈ DD.lhsBatch by decide),
    dif_pos (show (0 : Fin S2048x512.rank) ∈ DD.lhsNonContracting by decide)]
  rfl
theorem lhs1 (i : S2048x1024.Idx) (k : DD.contr.Idx) : (DD.lhsIdx i k 1).val = (k ⟨0, by decide⟩).val :=
  DD.lhsIdx_val_of_single rfl i k
/-- the second at (the contraction coordinate, the output's column). -/
theorem rhs0 (i : S2048x1024.Idx) (k : DD.contr.Idx) : (DD.rhsIdx i k 0).val = (k ⟨0, by decide⟩).val :=
  DD.rhsIdx_val_of_single rfl i k
theorem rhs1 (i : S2048x1024.Idx) (k : DD.contr.Idx) : (DD.rhsIdx i k 1).val = (i 1).val := by
  unfold DotDims.rhsIdx
  rw [dif_neg (show ¬(1 : Fin S512x1024.rank) ∈ DD.rhsBatch by decide),
    dif_pos (show (1 : Fin S512x1024.rank) ∈ DD.rhsNonContracting by decide)]
  rfl

/-- Entry `(p, q)` of `acc + a · b`: `acc[p, q]` plus the sum over `l < 512` of `a[p, l] * b[l, q]`. -/
theorem pay2_apply (xo : FVec Ideal S2048x1024 .f32) (x0 : FVec Ideal S2048x512 .bf16) (x1 : FVec Ideal S512x1024 .bf16)
    (p : Fin 2048) (q : Fin 1024) :
    k2_pay2 (F := Ideal) xo x0 x1 (ix2 p q) = xo (ix2 p q) + ∑ l : Fin 512, x0 (ix2 p l) * x1 (ix2 l q) := by
  unfold k2_pay2
  simp only [shapeCast_self]
  refine (addf_apply _ _ (ix2 p q)).trans ?_
  refine congrArg (xo (ix2 p q) + ·) ?_
  refine (Ideal.matmul_constant_zero_apply DD none x0 x1 (ix2 p q)).trans ?_
  rw [← Equiv.sum_comp kEquiv.symm]
  refine Finset.sum_congr rfl fun l _ => ?_
  have hk := contrEquiv1_symm_val DD 512 rfl rfl l
  have el : DD.lhsIdx (ix2 p q) (kEquiv.symm l) = ix2 p l := funext fun a => Fin.ext (by
    match a with
    | ⟨0, _⟩ => exact lhs0 _ _
    | ⟨1, _⟩ => exact (lhs1 _ _).trans hk)
  have er : DD.rhsIdx (ix2 p q) (kEquiv.symm l) = ix2 l q := funext fun a => Fin.ext (by
    match a with
    | ⟨0, _⟩ => exact (rhs0 _ _).trans hk
    | ⟨1, _⟩ => exact rhs1 _ _)
  rw [el, er]

end Cert.KernelIdeal.Acc

end
-- ==== Proof.AccFold.lean ====
/-
  Region 2, a run of eight grid points.

  The grid is 4 × 4 × 8 with the contraction axis innermost, so the points `8·u, 8·u + 1, …, 8·u + 7` work on one
  output block: the first resets it and every later one adds its own product block to what the point before left.
  Hence after point `n` the resident block holds, entry by entry, the sum of the product blocks of the points
  `8·(n / 8), …, n` of its run — by induction on the point, never by walking the 128 points.
-/
import proofs.«153254_j41944650612857_2_alg».proof.Proof.AccCases

set_option maxRecDepth 16384

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)

/-! ## Sums along a run of eight -/

/-- At the first point of a run the sum over the run so far is that point's term. -/
theorem run_reset (T : ℕ → EReal) (n : ℕ) (h0 : n % 8 = 0) :
    ∑ s ∈ Finset.range (n % 8 + 1), T (8 * (n / 8) + s) = T n := by
  have e0 : n % 8 + 1 = 1 := by omega
  have e : 8 * (n / 8) + 0 = n := by omega
  rw [e0, Finset.sum_range_one, e]

/-- At a later point of a run the sum over the run so far is the sum up to the point before plus this point's term. -/
theorem run_step (T : ℕ → EReal) (n : ℕ) (h0 : ¬(n + 1) % 8 = 0) :
    ∑ s ∈ Finset.range ((n + 1) % 8 + 1), T (8 * ((n + 1) / 8) + s)
      = (∑ s ∈ Finset.range (n % 8 + 1), T (8 * (n / 8) + s)) + T (n + 1) := by
  have e1 : (n + 1) % 8 + 1 = (n % 8 + 1) + 1 := by omega
  have e2 : (n + 1) / 8 = n / 8 := by omega
  have e3 : 8 * (n / 8) + (n % 8 + 1) = n + 1 := by omega
  rw [e1, e2, Finset.sum_range_succ, e3]

/-! ## The resident block after each point -/

variable (V : (c : Dev nD) → (b : Ref sig .tc) → Buf (Elt Ideal) ((c : Thread nD τ).loc b))

/-- The first sign matrix's block at point `t`, 2048 × 512, as the window reads it off the array the region found. -/
abbrev blkA (c : Dev nD) (t : Fin cfg2.N) : FVec Ideal S2048x512 .bf16 := iblk2 V c 0 t
/-- The second sign matrix's block at point `t`, 512 × 1024. -/
abbrev blkB (c : Dev nD) (t : Fin cfg2.N) : FVec Ideal S512x1024 .bf16 := iblk2 V c 1 t

/-- Point `n`'s product block at an entry `(p, q)`: the sum over `l < 512` of its first block at `(p, l)` times its second
    at `(l, q)`; zero past the grid, where no point is. -/
def term (c : Dev nD) (n : ℕ) (j : S2048x1024.Idx) : EReal :=
  if h : n < cfg2.N then
    ∑ l : Fin 512, ((blkA V c ⟨n, h⟩ (ix2 (⟨(j 0).val, (j 0).isLt⟩ : Fin 2048) l) : EReal)
      * (blkB V c ⟨n, h⟩ (ix2 l (⟨(j 1).val, (j 1).isLt⟩ : Fin 1024)) : EReal))
  else 0

theorem term_of_lt (c : Dev nD) (t : Fin cfg2.N) (p : Fin 2048) (q : Fin 1024) :
    term V c t.val (ix2 p q) = ∑ l : Fin 512, ((blkA V c t (ix2 p l) : EReal) * (blkB V c t (ix2 l q) : EReal)) := by
  unfold term
  rw [dif_pos t.isLt]

/-- The first point of a run leaves its own product block. -/
theorem at_reset (c : Dev nD) (t : Fin cfg2.N) (h0 : t.val % 8 = 0) (p : Fin 2048) (q : Fin 1024) :
    outsAt2 V c t.val t.isLt (ix2 p q) = term V c t.val (ix2 p q) := by
  rw [outsAt2_A V c t h0,
    out_A c (grid2.coords t) (ms2_0 t) (hs2_0 t) (ms2_1 t) (hs2_1 t) (ms2_2 t) (hs2_2 t) ((hcond2_0 t).mpr h0) (iblk2 V c 0 t) (iblk2 V c 1 t)]
  refine (pay2_apply (k2_pay1 (F := Ideal)) (blkA V c t) (blkB V c t) p q).trans ?_
  rw [pay1_apply, zero_add, term_of_lt V c t p q]

/-- A later point of a run adds its product block to what the point before left. -/
theorem at_step (c : Dev nD) (t : Fin cfg2.N) (h0 : ¬t.val % 8 = 0) (p : Fin 2048) (q : Fin 1024) :
    outsAt2 V c t.val t.isLt (ix2 p q)
      = outsAt2 V c (t.val - 1) (Nat.lt_of_le_of_lt (Nat.sub_le _ _) t.isLt) (ix2 p q) + term V c t.val (ix2 p q) := by
  rw [outsAt2_B V c t h0,
    out_B c (grid2.coords t) (ms2_0 t) (hs2_0 t) (ms2_1 t) (hs2_1 t) (ms2_2 t) (hs2_2 t) (fun h => h0 ((hcond2_0 t).mp h))
      (iblk2 V c 0 t) (iblk2 V c 1 t) (outsAt2 V c (t.val - 1) (Nat.lt_of_le_of_lt (Nat.sub_le _ _) t.isLt))]
  refine (pay2_apply (outsAt2 V c (t.val - 1) (Nat.lt_of_le_of_lt (Nat.sub_le _ _) t.isLt)) (blkA V c t) (blkB V c t) p q).trans ?_
  rw [term_of_lt V c t p q]

/-- AFTER POINT `n` the resident block holds the sum of the product blocks of its run's points up to `n`. -/
theorem outsAt_eq (c : Dev nD) : ∀ (n : ℕ) (h : n < cfg2.N) (p : Fin 2048) (q : Fin 1024),
    outsAt2 V c n h (ix2 p q) = ∑ s ∈ Finset.range (n % 8 + 1), term V c (8 * (n / 8) + s) (ix2 p q)
  | 0, h, p, q => (at_reset V c ⟨0, h⟩ rfl p q).trans (run_reset (fun k => term V c k (ix2 p q)) 0 rfl).symm
  | n + 1, h, p, q => by
    by_cases h0 : (n + 1) % 8 = 0
    · exact (at_reset V c ⟨n + 1, h⟩ h0 p q).trans (run_reset (fun k => term V c k (ix2 p q)) (n + 1) h0).symm
    · refine (at_step V c ⟨n + 1, h⟩ h0 p q).trans ?_
      refine Eq.trans ?_ (run_step (fun k => term V c k (ix2 p q)) n h0).symm
      exact congrArg (· + term V c (n + 1) (ix2 p q)) (outsAt_eq c n (Nat.lt_of_succ_lt h) p q)

end Cert.KernelIdeal.Acc

end
-- ==== Proof.Spec.lean ====
/-
  The mathematics both programs compute, stated once and over no program.

  Each input entry is replaced by its sign, `+1` where the entry is `≥ 0` and `-1` elsewhere, and the two
  sign matrices are multiplied: entry `(r, c)` of the result is the sum over `l < 4096` of
  `sgn x[r, l] * sgn w[l, c]`.  Every summand is `±1`, a real number, so the sum is finite whatever the
  inputs are; the inputs' own finiteness is only needed where a program takes the detour
  `v + (sgn v - v)`, which is `sgn v` exactly when `v` is a real number.
-/
import Idealize.ShloMosaic.PureOps.Ideal
import Idealize.ShloMosaic.Lib.ValueIdx

noncomputable section

open scoped BigOperators

namespace Cert.Spec

open Idealize.ShloMosaic Idealize.ShloMosaic.ValueIdx

/-- The shape of `x` and of the result: 8192 rows of 4096 entries. -/
abbrev SX : Shape := ⟨2, ![8192, 4096]⟩
/-- The shape of the weight: 4096 rows of 4096 entries. -/
abbrev SW : Shape := ⟨2, ![4096, 4096]⟩

/-- The sign both programs use: `+1` on `v ≥ 0`, `-1` below zero. -/
def sgn (v : EReal) : EReal := if 0 ≤ v then 1 else -1

/-- The row of an index of `x` or of the result, as a number below 8192. -/
abbrev rowOf (i : SX.Idx) : Fin 8192 := ⟨(i 0).val, (i 0).isLt⟩
/-- The column of an index of the result, as a number below 4096. -/
abbrev colOf (i : SX.Idx) : Fin 4096 := ⟨(i 1).val, (i 1).isLt⟩

/-- The product of a matrix `a` of 8192 × 4096 entries with a matrix `b` of 4096 × 4096 entries: entry
    `(r, c)` is the sum over `l < 4096` of `a[r, l] * b[l, c]`. -/
def mm (a : SX.Idx → EReal) (b : SW.Idx → EReal) : SX.Idx → EReal :=
  fun i => ∑ l : Fin 4096, a (ix2 (rowOf i) l) * b (ix2 l (colOf i))

/-- THE RESULT: the product of the two sign matrices. -/
def G (x : SX.Idx → EReal) (w : SW.Idx → EReal) : SX.Idx → EReal :=
  mm (fun i => sgn (x i)) (fun i => sgn (w i))

theorem G_apply (x : SX.Idx → EReal) (w : SW.Idx → EReal) (i : SX.Idx) :
    G x w i = ∑ l : Fin 4096, sgn (x (ix2 (rowOf i) l)) * sgn (w (ix2 l (colOf i))) := rfl

/-- A sign is `+1` or `-1`. -/
theorem sgn_cases (v : EReal) : sgn v = 1 ∨ sgn v = -1 := by
  unfold sgn; split
  · exact Or.inl rfl
  · exact Or.inr rfl

/-- The detour `v + (sgn v - v)` ends at `sgn v` when `v` is a real number (at an infinity it does not:
    `⊤ + (1 - ⊤)` is `⊥`). -/
theorem detour (v : EReal) (hv : ∃ r : ℝ, v = (r : EReal)) : v + (sgn v - v) = sgn v := by
  obtain ⟨r, rfl⟩ := hv
  rcases sgn_cases (r : EReal) with h | h <;> rw [h]
  · rw [show ((1 : EReal) - (r : EReal)) = (((1 - r : ℝ)) : EReal) by rw [EReal.coe_sub]; rfl,
      ← EReal.coe_add]; norm_num
  · rw [show ((-1 : EReal) - (r : EReal)) = (((-1 - r : ℝ)) : EReal) by rw [EReal.coe_sub, EReal.coe_neg]; rfl,
      ← EReal.coe_add]
    have : r + (-1 - r) = -1 := by ring
    rw [this, EReal.coe_neg]; rfl

end Cert.Spec

end
-- ==== Proof.BlockSum.lean ====
/-
  One regrouping law, over no program: a sum over `l < 4096` is the sum over eight consecutive runs of 512 terms,
  `l = 512 * s + l'` with `s < 8` and `l' < 512`.  Only commutativity and associativity of the addition are used, so it
  holds in the extended reals with no finiteness asked.
-/
import Idealize.ShloMosaic.PureOps.Ideal

noncomputable section

open scoped BigOperators

namespace Cert.BlockSum

/-- Eight runs of 512 consecutive terms make the whole sum of 4096 terms. -/
theorem sum_blocks {M : Type*} [AddCommMonoid M] (f : ℕ → M) :
    ∑ s ∈ Finset.range 8, ∑ l : Fin 512, f (512 * s + l.val) = ∑ l : Fin 4096, f l.val := by
  rw [Finset.sum_range]
  show _ = ∑ l : Fin (8 * 512), f l.val
  rw [← Equiv.sum_comp (finProdFinEquiv (m := 8) (n := 512)) (fun l : Fin (8 * 512) => f l.val), Fintype.sum_prod_type]
  refine Finset.sum_congr rfl fun s _ => Finset.sum_congr rfl fun l _ => ?_
  refine congrArg f ?_
  show 512 * s.val + l.val = l.val + 512 * s.val
  omega

end Cert.BlockSum

end
-- ==== Proof.AccArray.lean ====
/-
  Region 2, the whole array.

  Point `t = (i·4 + j)·8 + k` of the grid reads rows `2048·i …` and columns `512·k …` of the first sign matrix, rows
  `512·k …` and columns `1024·j …` of the second, and works on the output block of rows `2048·i …` and columns
  `1024·j …`, which is written back after the last step `k = 7` only.  By then the resident block holds the sum over
  the eight steps of the run, and the eight runs of 512 terms are the whole sum over `l < 4096`: the block written
  back is that block of the product of the two matrices the region found, and the sixteen blocks fill the array.
-/
import proofs.«153254_j41944650612857_2_alg».proof.Proof.AccFold
import proofs.«153254_j41944650612857_2_alg».proof.Proof.Spec
import proofs.«153254_j41944650612857_2_alg».proof.Proof.BlockSum

set_option maxRecDepth 16384

noncomputable section

open scoped BigOperators

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)

/-! ## The product as eight runs of 512 terms -/

/-- Term `n` of entry `(R, C)` of a product, for `n` below 4096; zero beyond. -/
def prodAt (A : Cert.Spec.SX.Idx → EReal) (B : Cert.Spec.SW.Idx → EReal) (R : Fin 8192) (C : Fin 4096) (n : ℕ) : EReal :=
  if h : n < 4096 then A (ix2 R ⟨n, h⟩) * B (ix2 ⟨n, h⟩ C) else 0

/-- Entry `(R, C)` of the product, its 4096 terms taken as eight runs of 512. -/
theorem mm_blocks (A : Cert.Spec.SX.Idx → EReal) (B : Cert.Spec.SW.Idx → EReal) (R : Fin 8192) (C : Fin 4096) :
    Cert.Spec.mm A B (ix2 R C) = ∑ s ∈ Finset.range 8, ∑ l : Fin 512, prodAt A B R C (512 * s + l.val) := by
  rw [Cert.BlockSum.sum_blocks (prodAt A B R C)]
  unfold Cert.Spec.mm
  refine Finset.sum_congr rfl fun l _ => ?_
  unfold prodAt
  rw [dif_pos l.isLt]

/-! ## The grid's index maps, and the blocks read through them -/

theorem hN : cfg2.N = 128 := N_2

/-- The three windows' block indices at point `t`, decided over the grid: the first matrix's block is (row tile, step), the
    second's (step, column tile), the output's (row tile, column tile). -/
theorem idx_facts : ∀ t : Fin cfg2.N,
    win2_0.index t (0 : Fin 2) = t.val / 32 ∧ win2_0.index t (1 : Fin 2) = t.val % 8
    ∧ win2_1.index t (0 : Fin 2) = t.val % 8 ∧ win2_1.index t (1 : Fin 2) = t.val / 8 % 4
    ∧ win2_2.index t (0 : Fin 2) = t.val / 32 ∧ win2_2.index t (1 : Fin 2) = t.val / 8 % 4 :=
  (by decide +kernel : ∀ t : Fin grid2.N, _)

variable (V : (c : Dev nD) → (b : Ref sig .tc) → Buf (Elt Ideal) ((c : Thread nD τ).loc b))

/-- Entry `(p, l)` of the first matrix's block at point `t` is the matrix at row `2048·(t / 32) + p`, column
    `512·(t % 8) + l`. -/
theorem iblk0_apply (c : Dev nD) (t : Fin cfg2.N) (p : Fin 2048) (l : Fin 512) (R : Fin 8192) (K : Fin 4096)
    (hR : R.val = 2048 * (t.val / 32) + p.val) (hK : K.val = 512 * (t.val % 8) + l.val) :
    blkA V c t (ix2 p l) = V c main_v0 (ix2 R K) := by
  obtain ⟨e0, e1, -, -, -, -⟩ := idx_facts t
  unfold blkA iblk2
  rw [View.read_apply]
  show V c main_v0 (((cfg2.win 0).blk t).view.emb (ix2 p l)) = V c main_v0 (ix2 R K)
  refine congrArg (V c main_v0) (funext fun a => Fin.ext ?_)
  match a with
  | ⟨0, _⟩ => show win2_0.index t (0 : Fin 2) * 2048 + 1 * p.val = R.val; rw [e0, hR]; omega
  | ⟨1, _⟩ => show win2_0.index t (1 : Fin 2) * 512 + 1 * l.val = K.val; rw [e1, hK]; omega

/-- Entry `(l, q)` of the second matrix's block at point `t` is the matrix at row `512·(t % 8) + l`, column
    `1024·(t / 8 % 4) + q`. -/
theorem iblk1_apply (c : Dev nD) (t : Fin cfg2.N) (l : Fin 512) (q : Fin 1024) (K : Fin 4096) (C : Fin 4096)
    (hK : K.val = 512 * (t.val % 8) + l.val) (hC : C.val = 1024 * (t.val / 8 % 4) + q.val) :
    blkB V c t (ix2 l q) = V c main_v1 (ix2 K C) := by
  obtain ⟨-, -, e2, e3, -, -⟩ := idx_facts t
  unfold blkB iblk2
  rw [View.read_apply]
  show V c main_v1 (((cfg2.win 1).blk t).view.emb (ix2 l q)) = V c main_v1 (ix2 K C)
  refine congrArg (V c main_v1) (funext fun a => Fin.ext ?_)
  match a with
  | ⟨0, _⟩ => show win2_1.index t (0 : Fin 2) * 512 + 1 * l.val = K.val; rw [e2, hK]; omega
  | ⟨1, _⟩ => show win2_1.index t (1 : Fin 2) * 1024 + 1 * q.val = C.val; rw [e3, hC]; omega

/-! ## What the last point of a run writes back -/

/-- After the last step of a run, entry `(p, q)` of the resident block is entry `(R, C)` of the product of the two matrices
    the region found, `R` and `C` the entry's row and column in the whole array. -/
theorem last_entry (c : Dev nD) (t : Fin cfg2.N) (h7 : t.val % 8 = 7) (p : Fin 2048) (q : Fin 1024) (R : Fin 8192) (C : Fin 4096)
    (hR : R.val = 2048 * (t.val / 32) + p.val) (hC : C.val = 1024 * (t.val / 8 % 4) + q.val) :
    outsAt2 V c t.val t.isLt (ix2 p q) = Cert.Spec.mm (V c main_v0) (V c main_v1) (ix2 R C) := by
  have ht : t.val < 128 := lt_of_lt_of_eq t.isLt hN
  have e7 : t.val % 8 + 1 = 8 := by omega
  rw [outsAt_eq V c t.val t.isLt p q, mm_blocks, e7]
  refine Finset.sum_congr rfl fun s hs => ?_
  have hs8 : s < 8 := Finset.mem_range.mp hs
  have hlt : 8 * (t.val / 8) + s < cfg2.N := lt_of_lt_of_eq (by omega : 8 * (t.val / 8) + s < 128) hN.symm
  refine (term_of_lt V c ⟨8 * (t.val / 8) + s, hlt⟩ p q).trans ?_
  refine Finset.sum_congr rfl fun l _ => ?_
  have hl : l.val < 512 := l.isLt
  have hK : 512 * s + l.val < 4096 := by omega
  unfold prodAt
  rw [dif_pos hK,
    iblk0_apply V c ⟨8 * (t.val / 8) + s, hlt⟩ p l R ⟨512 * s + l.val, hK⟩
      (by show R.val = 2048 * ((8 * (t.val / 8) + s) / 32) + p.val; omega)
      (by show 512 * s + l.val = 512 * ((8 * (t.val / 8) + s) % 8) + l.val; omega),
    iblk1_apply V c ⟨8 * (t.val / 8) + s, hlt⟩ l q ⟨512 * s + l.val, hK⟩ C
      (by show 512 * s + l.val = 512 * ((8 * (t.val / 8) + s) % 8) + l.val; omega)
      (by show C.val = 1024 * ((8 * (t.val / 8) + s) / 8 % 4) + q.val; omega)]

/-- WHAT A FLUSHING POINT WRITES BACK is its block of the product of the two matrices the region found. -/
theorem flushed_eq (c : Dev nD) (t : Fin cfg2.N) (hf : (cfg2.win 2).flush t = true) :
    (dat2 V c).flushed 2 t = ((cfg2.win 2).blk t).view.read (Elt Ideal) (Cert.Spec.mm (V c main_v0) (V c main_v1)) := by
  have h7 : t.val % 8 = 7 := (flush2_2 t).mp hf
  have ht : t.val < 128 := lt_of_lt_of_eq t.isLt hN
  obtain ⟨-, -, -, -, e4, e5⟩ := idx_facts t
  show (cfg2.win 2).cut (grid2.coords t) ((dat2 V c).after 2 t) = _
  rw [after2_2]
  refine funext fun (y : S2048x1024.Idx) => ?_
  obtain ⟨p, q, rfl⟩ : ∃ (p : Fin 2048) (q : Fin 1024), y = ix2 p q := ⟨y 0, y 1, eq_ix2 y⟩
  have hp : p.val < 2048 := p.isLt
  have hq : q.val < 1024 := q.isLt
  have hemb : ((cfg2.win 2).blk t).view.emb (ix2 p q)
      = ix2 (⟨2048 * (t.val / 32) + p.val, by omega⟩ : Fin 8192) (⟨1024 * (t.val / 8 % 4) + q.val, by omega⟩ : Fin 4096) := by
    funext a; apply Fin.ext
    match a with
    | ⟨0, _⟩ => show win2_2.index t (0 : Fin 2) * 2048 + 1 * p.val = 2048 * (t.val / 32) + p.val; rw [e4]; omega
    | ⟨1, _⟩ => show win2_2.index t (1 : Fin 2) * 1024 + 1 * q.val = 1024 * (t.val / 8 % 4) + q.val; rw [e5]; omega
  rw [View.read_apply, hemb]
  exact last_entry V c t h7 p q _ _ rfl rfl

/-! ## The sixteen blocks fill the array -/

/-- Entry `(r, cc)` of the array lies in the block written back by the last point of the run of tile
    `(r / 2048, cc / 1024)`. -/
theorem cover (i : S8192x4096.Idx) :
    ∃ t : Fin cfg2.N, (cfg2.win 2).flush t = true ∧ i ∈ ((cfg2.win 2).blk t).view.set := by
  have h0 : (i 0).val < 8192 := (i 0).isLt
  have h1 : (i 1).val < 4096 := (i 1).isLt
  have hlt : ((i 0).val / 2048 * 4 + (i 1).val / 1024) * 8 + 7 < cfg2.N :=
    lt_of_lt_of_eq (by omega : ((i 0).val / 2048 * 4 + (i 1).val / 1024) * 8 + 7 < 128) hN.symm
  obtain ⟨-, -, -, -, e4, e5⟩ := idx_facts ⟨_, hlt⟩
  have e4' : win2_2.index ⟨_, hlt⟩ (0 : Fin 2) = (((i 0).val / 2048 * 4 + (i 1).val / 1024) * 8 + 7) / 32 := e4
  have e5' : win2_2.index ⟨_, hlt⟩ (1 : Fin 2) = (((i 0).val / 2048 * 4 + (i 1).val / 1024) * 8 + 7) / 8 % 4 := e5
  refine ⟨⟨_, hlt⟩, (flush2_2 _).mpr (by show (((i 0).val / 2048 * 4 + (i 1).val / 1024) * 8 + 7) % 8 = 7; omega), ?_⟩
  show i ∈ ((View.whole main_v2).slice (win2_2.rect ⟨_, hlt⟩)).set
  rw [View.set_slice_whole, Rect.mem_set_unit]
  intro a
  match a with
  | ⟨0, _⟩ =>
    show win2_2.index ⟨_, hlt⟩ (0 : Fin 2) * 2048 ≤ (i 0).val ∧ (i 0).val < win2_2.index ⟨_, hlt⟩ (0 : Fin 2) * 2048 + 2048
    rw [e4']; omega
  | ⟨1, _⟩ =>
    show win2_2.index ⟨_, hlt⟩ (1 : Fin 2) * 1024 ≤ (i 1).val ∧ (i 1).val < win2_2.index ⟨_, hlt⟩ (1 : Fin 2) * 1024 + 1024
    rw [e5']; omega

/-- THE ARRAY AFTER REGION 2: the product of the two matrices the region found. -/
theorem final (c : Dev nD) : (dat2 V c).arrAt 2 cfg2.N = Cert.Spec.mm (V c main_v0) (V c main_v1) :=
  (dat2 V c).arrAt_eq_of_cover 2 (Cert.Spec.mm (V c main_v0) (V c main_v1)) (flushed_eq V c) cover

end Cert.KernelIdeal.Acc

end
-- ==== Proof.SignBlocks.lean ====
/-
  The kernel's first stage: it replaces every entry of `x` by the entry's sign, one block of 512 rows (all 4096
  columns) at a time, over the 16 row blocks of `x`.  Stated at the contents `V` the stage finds when it is
  entered: after the stage's last write-back the output array is the sign of the input array, entry by entry.

  Three steps: the body's arithmetic at one entry is the sign (`pay0_apply`); what point `t` writes back is
  block `t` of the array of signs, because the input block and the output block of a point are the same rows
  (`written0_eq`); and row `r` lies in the block of point `r / 512`, so the blocks cover the array
  (`rows0_cover`).
-/
import proofs.«153254_j41944650612857_2_alg».proof.Proof.Spec
import proofs.«153254_j41944650612857_2_alg».proof.Proof.Gen.KernelIdeal.Frame
import Idealize.ShloMosaic.Lib.Pipeline.Value
import Idealize.ShloMosaic.Lib.ValueIdx

noncomputable section

namespace Cert.KernelIdeal.SignBlocks

open Cert.KernelIdeal Cert.KernelIdeal.Gen Idealize.ShloMosaic Idealize.ShloMosaic.TcCoe Idealize.SL.Sem
open Idealize.ShloMosaic.Pipeline (Dat)

/-! ## The body's arithmetic at one entry -/

/-- The three constants of the body, as extended reals. -/
theorem zero_f32 : Ideal.ofBits .f32 0x00000000#32 = 0 := by simp [Ideal.ofBits, Ideal.ieee]
theorem one_bf16 : Ideal.ofBits .bf16 0x3F80#16 = 1 := by simp [Ideal.ofBits, Ideal.ieee, -EReal.coe_mul]; norm_num
theorem negOne_bf16 : Ideal.ofBits .bf16 0xBF80#16 = -1 := by simp [Ideal.ofBits, Ideal.ieee, -EReal.coe_mul]; norm_num

/-- The ordered comparison `x ≥ 0` of extended reals is the bit of `0 ≤ x`. -/
theorem cmp_oge_zero (x : EReal) : Ideal.cmp .oge x 0 = BitVec.ofBool (decide (0 ≤ x)) := rfl

/-- Selecting `1` where `x ≥ 0` and `-1` elsewhere is the sign of `x`. -/
theorem select_sgn (x : EReal) :
    Scalar.select (Ideal.cmp .oge x (Ideal.ofBits .f32 0x00000000#32)) (Ideal.ofBits .bf16 0x3F80#16)
      (Ideal.ofBits .bf16 0xBF80#16) = Cert.Spec.sgn x := by
  rw [zero_f32, one_bf16, negOne_bf16, cmp_oge_zero]
  unfold Cert.Spec.sgn
  by_cases h : (0 : EReal) ≤ x
  · rw [decide_eq_true h, if_pos h]; exact ValueIdx.select_one _ _
  · rw [decide_eq_false h, if_neg h]; exact ValueIdx.select_zero _ _

/-- The body's payload at an index of its block: the sign of the loaded entry. -/
theorem pay0_apply (v : Vec Ideal S512x4096 .f32) (j : S512x4096.Idx) :
    k0_pay1 (F := Ideal) v j = Cert.Spec.sgn (v j) := by
  unfold k0_pay1
  simp only [ValueIdx.select_apply, ValueIdx.cmpf_apply, ValueIdx.broadcast_apply]
  exact select_sgn (v j)

/-! ## From blocks to the array -/

-- the contents of the TensorCore's buffers when the stage is entered: a parameter throughout
variable (V : (c : Dev nD) → (b : Ref sig .tc) → Buf (Elt Ideal) ((c : Thread nD τ).loc b))

/-- The offsets of a whole-block access, both zero. -/
theorem zero_offsets : (![0, 0] : Fin 2 → Nat) = fun _ => 0 := funext fun a => by fin_cases a <;> rfl

/-! ## Stage 0: the signs of `x`, 16 blocks of 512 rows -/

/-- The index maps of stage 0, decided over its 16 points: the input block and the output block of point `t` have
    the same block index on both axes, and that index is `(t, 0)`: rows `512 t … 512 t + 511`, every column. -/
theorem rows0_facts : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is block `t` of the array of signs of the input array: the body stores the sign
    of each entry of its input block, and an entry of the input block sits in the input array where the same entry
    of the output block sits in the output array (block index times block size plus the coordinate inside the
    block, on each axis). -/
theorem written0_eq (c : Dev nD) (t : Fin cfg0.N) :
    (dat0 (F := Ideal) V c).flushed 1 t
      = ((cfg0.win 1).blk t).view.read (Elt Ideal) (fun i => Cert.Spec.sgn (V c main_arg0 i)) := by
  show (cfg0.win 1).cut (grid0.coords t) ((dat0 V c).after 1 t) = _
  rw [after0_1]
  unfold out0_1
  rw [View.canon_unit_zero zero_offsets]
  simp only [View.ld_unit_zero (S := S512x4096) zero_offsets]
  obtain ⟨e0, e1, e2, e3⟩ := rows0_facts t
  funext j
  show k0_pay1 (F := Ideal) (iblk0 V c 0 t) j = Cert.Spec.sgn (V c main_arg0 (((cfg0.win 1).blk t).view.emb j))
  refine (pay0_apply (iblk0 V c 0 t) j).trans ?_
  show Cert.Spec.sgn (V c main_arg0 (((cfg0.win 0).blk t).view.emb j)) = _
  have h : ((cfg0.win 0).blk t).view.emb j = ((cfg0.win 1).blk t).view.emb j := by
    funext a; apply Fin.ext
    match a with
    | ⟨0, _⟩ =>
      show win0_0.index t (0 : Fin 2) * 512 + 1 * (j 0).val = win0_1.index t (0 : Fin 2) * 512 + 1 * (j 0).val
      omega
    | ⟨1, _⟩ =>
      show win0_0.index t (1 : Fin 2) * 4096 + 1 * (j 1).val = win0_1.index t (1 : Fin 2) * 4096 + 1 * (j 1).val
      omega
  rw [h]

/-- An index of the output array is in point `t`'s block iff each coordinate is in the block's range on its axis. -/
theorem mem_rows0 (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- Every index of the output array is in some point's block: row `r` is in the block of point `r / 512`, whose rows
    are `512 (r / 512) … 512 (r / 512) + 511`, and every block has all 4096 columns. -/
theorem rows0_cover (i : S8192x4096.Idx) :
    ∃ t : Fin cfg0.N, (cfg0.win 1).flush t = true ∧ i ∈ ((cfg0.win 1).blk t).view.set := by
  have hN : cfg0.N = 16 := N_0
  have h0 : (i 0).val < 8192 := (i 0).isLt
  have h1 : (i 1).val < 4096 := (i 1).isLt
  have hlt : (i 0).val / 512 < cfg0.N := by rw [hN]; omega
  obtain ⟨e0, e1, e2, e3⟩ := rows0_facts ⟨(i 0).val / 512, hlt⟩
  refine ⟨⟨(i 0).val / 512, hlt⟩, flush0_1 _, ?_⟩
  rw [mem_rows0]
  intro a
  match a with
  | ⟨0, _⟩ =>
    show win0_1.index ⟨(i 0).val / 512, hlt⟩ (0 : Fin 2) * 512 ≤ (i 0).val
      ∧ (i 0).val < win0_1.index ⟨(i 0).val / 512, hlt⟩ (0 : Fin 2) * 512 + 512
    rw [e2]
    show (i 0).val / 512 * 512 ≤ (i 0).val ∧ (i 0).val < (i 0).val / 512 * 512 + 512
    omega
  | ⟨1, _⟩ =>
    show win0_1.index ⟨(i 0).val / 512, hlt⟩ (1 : Fin 2) * 4096 ≤ (i 1).val
      ∧ (i 1).val < win0_1.index ⟨(i 0).val / 512, hlt⟩ (1 : Fin 2) * 4096 + 4096
    rw [e3]
    omega

/-- STAGE 0: after its last write-back the output array is the sign of the input array, entry by entry. -/
theorem signs0 (c : Dev nD) :
    (dat0 (F := Ideal) V c).arrAt 1 cfg0.N = fun i => Cert.Spec.sgn (V c main_arg0 i) :=
  (dat0 V c).arrAt_eq_of_cover 1 (fun i => Cert.Spec.sgn (V c main_arg0 i)) (fun t _ => written0_eq V c t)
    rows0_cover

end Cert.KernelIdeal.SignBlocks

end
-- ==== Proof.RefSide.lean ====
/-
  The reference program is the product of the two sign matrices.

  The reference replaces every entry `v` of both inputs by `v + (s - v)`, where `s` is `+1` when `0 ≤ v` and
  `-1` otherwise, and contracts the two arrays over the shared axis.  On a real number `v` the detour
  `v + (s - v)` ends at `s`, so under the hypothesis that every input entry is a real number the result is the
  function `G` of the specification.
-/
import proofs.«153254_j41944650612857_2_alg».proof.Proof.Spec
import proofs.«153254_j41944650612857_2_alg».proof.Proof.Gen.ReferenceIdeal.Read

noncomputable section

open scoped BigOperators

namespace Cert.RefSide

open Idealize.ShloMosaic Idealize.ShloMosaic.ValueIdx Cert.ReferenceIdeal Cert.ReferenceIdeal.Read

/-! ## The three constants of the program, as extended reals -/

/-- The word `0x00000000` is the number `0`. -/
theorem bits_zero : Ideal.ofBits .f32 0x00000000#32 = 0 := by
  simp [Ideal.ofBits, Ideal.ieee]

/-- The word `0x3F800000` is the number `1`. -/
theorem bits_one : Ideal.ofBits .f32 0x3F800000#32 = 1 := by
  simp [Ideal.ofBits, Ideal.ieee, -EReal.coe_mul]; norm_num

/-- The word `0xBF800000` is the number `-1`. -/
theorem bits_neg_one : Ideal.ofBits .f32 0xBF800000#32 = -1 := by
  simp [Ideal.ofBits, Ideal.ieee, -EReal.coe_mul]; norm_num

/-! ## One entry -/

/-- Choosing `1` where `v ≥ 0` holds and `-1` elsewhere is the sign of `v`. -/
theorem select_ge (v : EReal) :
    Scalar.select (Ideal.cmp .oge v 0) (1 : EReal) (-1) = Cert.Spec.sgn v := by
  unfold Cert.Spec.sgn
  by_cases h : (0 : EReal) ≤ v
  · rw [if_pos h]
    have : Ideal.cmp .oge v 0 = 1#1 := by simp [Ideal.cmp, h]
    rw [this, select_one]
  · rw [if_neg h]
    have : Ideal.cmp .oge v 0 = 0#1 := by simp [Ideal.cmp, h]
    rw [this, select_zero]

/-- One entry of the rewritten left operand: the sign of the entry of `x`. -/
theorem v5_apply (x : (⟨S8192x4096, .f32⟩ : BufTy).Contents (Elt Ideal))
    (hx : ∀ i, ∃ r : ℝ, x i = (r : EReal)) (j : S8192x4096.Idx) :
    val_main_v5 (F := Ideal) x j = Cert.Spec.sgn (x j) := by
  rw [val_main_v5_apply, val_main_v4_apply, val_main_v3_apply, val_main_v2_apply, val_main_v1_apply,
    val_main_v0_apply, val_main_cst_apply, val_main_call0_v0_apply, val_main_cst_0_apply,
    val_main_call0_v1_apply, val_main_cst_1_apply]
  show x j + (Scalar.select (Ideal.cmp .oge (x j) (Ideal.ofBits .f32 0x00000000#32))
    (Ideal.ofBits .f32 0x3F800000#32) (Ideal.ofBits .f32 0xBF800000#32) - x j) = _
  rw [bits_zero, bits_one, bits_neg_one, select_ge]
  exact Cert.Spec.detour (x j) (hx j)

/-- One entry of the rewritten right operand: the sign of the entry of `w`. -/
theorem v11_apply (w : (⟨S4096x4096, .f32⟩ : BufTy).Contents (Elt Ideal))
    (hw : ∀ i, ∃ r : ℝ, w i = (r : EReal)) (j : S4096x4096.Idx) :
    val_main_v11 (F := Ideal) w j = Cert.Spec.sgn (w j) := by
  rw [val_main_v11_apply, val_main_v10_apply, val_main_v9_apply, val_main_v8_apply, val_main_v7_apply,
    val_main_v6_apply, val_main_cst_2_apply, val_main_call1_v0_apply, val_main_cst_3_apply,
    val_main_call1_v1_apply, val_main_cst_4_apply]
  show w j + (Scalar.select (Ideal.cmp .oge (w j) (Ideal.ofBits .f32 0x00000000#32))
    (Ideal.ofBits .f32 0x3F800000#32) (Ideal.ofBits .f32 0xBF800000#32) - w j) = _
  rw [bits_zero, bits_one, bits_neg_one, select_ge]
  exact Cert.Spec.detour (w j) (hw j)

/-! ## The contraction's two index maps -/

/-- The left operand is read at row `rowOf i`, column `k`. -/
theorem lidx_eq (i : S8192x4096.Idx) (k : Fin 4096) :
    lidx_main_v12 i k = ix2 (Cert.Spec.rowOf i) k :=
  funext fun a => Fin.ext (by match a with | ⟨0, _⟩ => rfl | ⟨1, _⟩ => rfl)

/-- The right operand is read at row `k`, column `colOf i`. -/
theorem ridx_eq (i : S8192x4096.Idx) (k : Fin 4096) :
    ridx_main_v12 i k = ix2 k (Cert.Spec.colOf i) :=
  funext fun a => Fin.ext (by match a with | ⟨0, _⟩ => rfl | ⟨1, _⟩ => rfl)

/-! ## The reference's result -/

/-- THE REFERENCE IS `G`: on inputs whose entries are all real numbers, the reference's result is the product of
    the two sign matrices. -/
theorem ref_eq (x : (⟨Cert.ReferenceIdeal.S8192x4096, .f32⟩ : BufTy).Contents (Elt Ideal))
    (w : (⟨Cert.ReferenceIdeal.S4096x4096, .f32⟩ : BufTy).Contents (Elt Ideal))
    (hx : ∀ i, ∃ r : ℝ, x i = (r : EReal)) (hw : ∀ i, ∃ r : ℝ, w i = (r : EReal)) :
    Cert.ReferenceIdeal.Read.val_main_v12 (F := Ideal) x w = Cert.Spec.G x w := by
  funext i
  rw [val_main_v12_apply, Cert.Spec.G_apply]
  refine Finset.sum_congr rfl fun k _ => ?_
  rw [v5_apply x hx, v11_apply w hw, lidx_eq, ridx_eq]

end Cert.RefSide

end
-- ==== Proof.SignBlocks1.lean ====
/-
  The second binarize call, as one whole-array fact.

  The call walks the weight in 8 blocks of 512 rows (all 4096 columns).  At each block it replaces every entry `v`
  by `+1` where `0 ≤ v` and by `-1` elsewhere, and writes the block back to the same rows of the result.  The
  8 blocks tile the 4096 rows, so the result array ends holding the sign of the weight, entry by entry.
-/
import proofs.«153254_j41944650612857_2_alg».proof.Proof.Spec
import proofs.«153254_j41944650612857_2_alg».proof.Proof.RefSide
import proofs.«153254_j41944650612857_2_alg».proof.Proof.Gen.KernelIdeal.Frame
import Idealize.ShloMosaic.Lib.Pipeline.Value
import Idealize.ShloMosaic.Lib.ValueIdx

noncomputable section

namespace Cert.KernelIdeal.SignBlocks1

open Cert.KernelIdeal Cert.KernelIdeal.Gen Idealize.ShloMosaic Idealize.ShloMosaic.TcCoe Idealize.SL.Sem
open Idealize.ShloMosaic.ValueIdx
open Idealize.ShloMosaic.Pipeline (Dat)

/-! ## The two half-precision constants, as extended reals -/

/-- The 16-bit word `0x3F80` is the number `1`. -/
theorem bits16_one : Ideal.ofBits .bf16 0x3F80#16 = 1 := by
  simp [Ideal.ofBits, Ideal.ieee, -EReal.coe_mul]; norm_num

/-- The 16-bit word `0xBF80` is the number `-1`. -/
theorem bits16_neg_one : Ideal.ofBits .bf16 0xBF80#16 = -1 := by
  simp [Ideal.ofBits, Ideal.ieee, -EReal.coe_mul]; norm_num

/-! ## The body's payload at one entry -/

/-- The body's payload at an entry is the sign of the loaded entry. -/
theorem pay1 (v : FVec Ideal S512x4096 .f32) (j : S512x4096.Idx) :
    k1_pay1 (F := Ideal) v j = Cert.Spec.sgn (v j) := by
  unfold k1_pay1
  show Scalar.select (Ideal.cmp .oge (v j) (Ideal.ofBits .f32 0x00000000#32))
    (Ideal.ofBits .bf16 0x3F80#16) (Ideal.ofBits .bf16 0xBF80#16) = _
  rw [Cert.RefSide.bits_zero, bits16_one, bits16_neg_one]
  exact Cert.RefSide.select_ge (v j)

/-! ## What one grid point writes back -/

variable (V : (c : Dev nD) → (b : Ref sig .tc) → Buf (Elt Ideal) ((c : Thread nD τ).loc b))

/-- The store's rectangle starts at the origin of the block. -/
theorem hz : (![0, 0] : Fin 2 → Nat) = fun _ => 0 := funext fun a => by fin_cases a <;> rfl

/-- The two index maps, decided over the 8 grid points: the input block and the output block of a point sit at the
    same block position, row block `t`, column block `0`. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- WHAT POINT `t` WRITES BACK is block `t` of the sign of the weight as the call finds it. -/
theorem flushed_eq (c : Dev nD) (t : Fin cfg1.N) :
    (dat1 (F := Ideal) V c).flushed 1 t
      = ((cfg1.win 1).blk t).view.read (Elt Ideal) (fun i => Cert.Spec.sgn (V c main_arg1 i)) := by
  show (cfg1.win 1).cut (grid1.coords t) ((dat1 (F := Ideal) V c).after 1 t) = _
  rw [after1_1]
  unfold out1_1
  rw [View.canon_unit_zero hz]
  simp only [View.ld_unit_zero (S := S512x4096) hz]
  obtain ⟨e0, e1, -, -⟩ := idx_facts t
  funext j
  show k1_pay1 (F := Ideal) (iblk1 V c 0 t) j = Cert.Spec.sgn (V c main_arg1 (((cfg1.win 1).blk t).view.emb j))
  rw [pay1]
  show Cert.Spec.sgn (V c main_arg1 (((cfg1.win 0).blk t).view.emb j)) = _
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-! ## The blocks tile the result -/

/-- Row `r` of the result lies in the block of point `r / 512`, and every point writes its block back. -/
theorem cover (i : S4096x4096.Idx) :
    ∃ t : Fin cfg1.N, (cfg1.win 1).flush t = true ∧ i ∈ ((cfg1.win 1).blk t).view.set := by
  have hN : cfg1.N = 8 := N_1
  have hi0 : (i 0).val < 4096 := (i 0).isLt
  have hi1 : (i 1).val < 4096 := (i 1).isLt
  let t : Fin cfg1.N := ⟨(i 0).val / 512, by rw [hN]; omega⟩
  obtain ⟨-, -, e2, e3⟩ := idx_facts t
  have ht : t.val = (i 0).val / 512 := rfl
  refine ⟨t, flush1_1 t, ?_⟩
  show i ∈ ((View.whole main_v1).slice (win1_1.rect t)).set
  rw [View.set_slice_whole, Rect.mem_set_unit]
  intro a
  match a with
  | ⟨0, _⟩ =>
    show win1_1.index t (0 : Fin 2) * 512 ≤ (i 0).val ∧ (i 0).val < win1_1.index t (0 : Fin 2) * 512 + 512
    omega
  | ⟨1, _⟩ =>
    show win1_1.index t (1 : Fin 2) * 4096 ≤ (i 1).val ∧ (i 1).val < win1_1.index t (1 : Fin 2) * 4096 + 4096
    omega

/-! ## The result array -/

/-- THE SECOND BINARIZE CALL: its result array ends holding the sign of every entry of the weight as the call finds
    it. -/
theorem signs1 (c : Dev nD) :
    (dat1 (F := Ideal) V c).arrAt 1 cfg1.N = fun i => Cert.Spec.sgn (V c main_arg1 i) :=
  (dat1 (F := Ideal) V c).arrAt_eq_of_cover 1 _ (fun t _ => flushed_eq V c t) cover

end Cert.KernelIdeal.SignBlocks1

end
-- ==== Proof.Result.lean ====
/-
  The kernel's result as a function of its arguments.

  The run names the result array `W3 m ρ c main_v2`.  Walking the three regions backwards: region 2 leaves there the
  product of the two arrays it found at `main_v0` and `main_v1`; region 1 wrote `main_v1`, the signs of the second
  argument, and touched nothing else region 2 reads; region 0 wrote `main_v0`, the signs of the first argument.  So
  the result is the product of the two sign matrices, the function `Cert.Spec.G` of the arguments.
-/
import proofs.«153254_j41944650612857_2_alg».proof.Proof.RunValue
import proofs.«153254_j41944650612857_2_alg».proof.Proof.AccArray
import proofs.«153254_j41944650612857_2_alg».proof.Proof.SignBlocks
import proofs.«153254_j41944650612857_2_alg».proof.Proof.SignBlocks1

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Region 2 finds at `main_v0` the signs of the first argument: region 1 does not write that buffer, region 0 wrote it
    from the argument as launched. -/
theorem signs_x (c : Dev nD) :
    V2 m ρ c main_v0 = fun i => Cert.Spec.sgn (m ((c : Thread nD τ).loc main_arg0) i) :=
  calc V2 m ρ c main_v0
    _ = W1 m ρ c (Proc.devRef .tc main_v0) := W2_of_ne m ρ c main_v0 (by decide)
    _ = (dat0 (V0 m ρ) c).arrAt 1 cfg0.N := W1_arr m ρ c 1
    _ = fun i => Cert.Spec.sgn (V0 m ρ c main_arg0 i) := Cert.KernelIdeal.SignBlocks.signs0 (V0 m ρ) c
    _ = fun i => Cert.Spec.sgn (m ((c : Thread nD τ).loc main_arg0) i) := rfl

/-- Region 1 finds the second argument as launched: region 0 does not write it. -/
theorem arg1_kept (c : Dev nD) : V1 m ρ c main_arg1 = m ((c : Thread nD τ).loc main_arg1) :=
  (W1_of_ne m ρ c main_arg1 (by decide)).trans rfl

/-- Region 2 finds at `main_v1` the signs of the second argument. -/
theorem signs_w (c : Dev nD) :
    V2 m ρ c main_v1 = fun i => Cert.Spec.sgn (m ((c : Thread nD τ).loc main_arg1) i) :=
  calc V2 m ρ c main_v1
    _ = (dat1 (V1 m ρ) c).arrAt 1 cfg1.N := W2_arr m ρ c 1
    _ = fun i => Cert.Spec.sgn (V1 m ρ c main_arg1 i) := Cert.KernelIdeal.SignBlocks1.signs1 (V1 m ρ) c
    _ = fun i => Cert.Spec.sgn (m ((c : Thread nD τ).loc main_arg1) i) := by rw [arg1_kept m ρ c]

/-- THE RESULT ARRAY after the run is the product of the two sign matrices. -/
theorem result_eq (c : Dev nD) :
    W3 m ρ c (Proc.devRef .tc main_v2)
      = Cert.Spec.G (m ((c : Thread nD τ).loc main_arg0)) (m ((c : Thread nD τ).loc main_arg1)) :=
  calc W3 m ρ c (Proc.devRef .tc main_v2)
    _ = (dat2 (V2 m ρ) c).arrAt 2 cfg2.N := W3_arr m ρ c 2
    _ = Cert.Spec.mm (V2 m ρ c main_v0) (V2 m ρ c main_v1) := Cert.KernelIdeal.Acc.final (V2 m ρ) c
    _ = Cert.Spec.G (m ((c : Thread nD τ).loc main_arg0)) (m ((c : Thread nD τ).loc main_arg1)) := by
      rw [signs_x m ρ c, signs_w m ρ c]; rfl

/-- The kernel's run, read: the result array at `G` of the arguments, the arguments unchanged. -/
theorem run : θ_run defs (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Cert.KernelIdeal.RunValue.run m ρ)

end Cert.KernelIdeal.Result

end
-- ==== Proof.Finite.lean ====
/-
  From the precondition to "every input entry is a real number".

  The precondition is the conjunction of two tests, one per input: every entry `v` satisfies `|v| < +∞`.  Among the
  extended reals `|v| = max v (-v)`, and `max v (-v) < ⊤` fails at both infinities, so an entry that passes the
  test is a real number.
-/
import proofs.«153254_j41944650612857_2_alg».proof.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The word `0x7F800000` is `+∞`. -/
theorem bits_top : Ideal.ofBits .f32 0x7F800000#32 = ⊤ := by
  simp [Ideal.ofBits, Ideal.ieee]

/-- An extended real whose absolute value `max v (-v)` is strictly below `+∞` is a real number. -/
theorem real_of_abs_lt (v : EReal) (h : Ideal.cmp .olt (max v (-v)) (Ideal.ofBits .f32 0x7F800000#32) = 1#1) :
    ∃ r : ℝ, v = (r : EReal) := by
  rw [bits_top] at h
  induction v using EReal.rec with
  | bot => simp [Ideal.cmp] at h
  | coe r => exact ⟨r, rfl⟩
  | top => simp [Ideal.cmp] at h

/-- THE PRECONDITION GIVES REAL ENTRIES: when the finiteness test answers `1`, every entry of `x` and every entry
    of `w` is a real number. -/
theorem reals_of_pre [Cert.Pre_finite_inputs.Facts]
    (x : FVec Ideal Cert.Pre_finite_inputs.S8192x4096 .f32) (w : FVec Ideal Cert.Pre_finite_inputs.S4096x4096 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨hX, hW⟩ := IntOp.andi_eq_one.1 h0
  refine ⟨fun i => real_of_abs_lt (x i) ?_, fun i => real_of_abs_lt (w i) ?_⟩
  · exact Host.reduce_andi_all _ _ _ _ _ hX i
  · exact Host.reduce_andi_all _ _ _ _ _ hW i

end Cert.Finite

end
-- ==== Proof.lean ====
/-
  A binary linear layer against its jnp reference, equal over the extended reals.

  Both programs replace every entry `v` of the input `x` (8192 × 4096) and of the weight `w` (4096 × 4096) by its sign,
  `+1` where `v ≥ 0` and `-1` elsewhere, and multiply the two sign matrices: entry `(r, c)` of the result is the sum
  over `l < 4096` of `sgn x[r, l] * sgn w[l, c]` (`Cert.Spec.G`).

  The kernel does it in three regions.  The first two write the sign matrices block of 512 rows by block; the third
  multiplies them tile by tile, keeping a 2048 × 1024 output tile resident over the eight steps of the contraction
  axis: the first step stores zeros and adds its 512-term partial product, each later step adds its own, and the tile
  is written back after the eighth.  Eight runs of 512 terms are the whole sum of 4096 terms, in any grouping, because
  only commutativity and associativity of the extended reals' addition are used.

  The reference computes each sign by the detour `v + (sgn v - v)`, which is `sgn v` exactly when `v` is a real number
  (at an infinity it is not); this is the one place the precondition, every input finite, is used.  It then takes one
  matrix product, which at the ideal instance is the same sum over `l < 4096`.

  The three frames: the two kernel programs' are the generated frame certificates, the reference's its run with
  the result dropped.  The idealization rewrote nothing, so it preserves trivially.
-/
import proofs.«153254_j41944650612857_2_alg».proof.Defs
import proofs.«153254_j41944650612857_2_alg».proof.Proof.Gen.Kernel
import proofs.«153254_j41944650612857_2_alg».proof.Proof.Gen.Kernel.Skeleton
import proofs.«153254_j41944650612857_2_alg».proof.Proof.Gen.Kernel.Launch
import proofs.«153254_j41944650612857_2_alg».proof.Proof.Gen.Kernel.Points
import proofs.«153254_j41944650612857_2_alg».proof.Proof.Gen.Kernel.Frame
import proofs.«153254_j41944650612857_2_alg».proof.Proof.Gen.KernelIdeal
import proofs.«153254_j41944650612857_2_alg».proof.Proof.Gen.KernelIdeal.Skeleton
import proofs.«153254_j41944650612857_2_alg».proof.Proof.Gen.KernelIdeal.Launch
import proofs.«153254_j41944650612857_2_alg».proof.Proof.Gen.KernelIdeal.Points
import proofs.«153254_j41944650612857_2_alg».proof.Proof.Gen.KernelIdeal.Frame
import proofs.«153254_j41944650612857_2_alg».proof.Proof.Gen.ReferenceIdeal
import proofs.«153254_j41944650612857_2_alg».proof.Proof.Gen.ReferenceIdeal.Run
import proofs.«153254_j41944650612857_2_alg».proof.Proof.Gen.ReferenceIdeal.Read
import proofs.«153254_j41944650612857_2_alg».proof.Proof.Gen.Pre_finite_inputs
import proofs.«153254_j41944650612857_2_alg».proof.Proof.Result
import proofs.«153254_j41944650612857_2_alg».proof.Proof.RefSide
import proofs.«153254_j41944650612857_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and writes neither argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the product of the two sign matrices: the
    kernel's three regions by their values, the reference's detour by the finiteness of every input entry. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Finite.reals_of_pre _ _ (hpre c)
  rw [(hagree c).1, (hagree c).2, Cert.ReferenceIdeal.Read.val_main_v12_eq]
  exact Cert.RefSide.ref_eq _ _ hx hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
